-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x256, .bf16⟩
  | .hbm, ⟨8, _⟩ => ⟨S8192x256, .bf16⟩
  | .hbm, ⟨9, _⟩ => ⟨S8192x8192, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S1024x256_S1024 : S1024x256.Reduces [1] S1024
  shapeCasts_S1024_S1024x1 : S1024.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .f32 = 32 ∨ (Rect.block (s := S8192x8192) S1024x2048.size (cc0_transform_3 i) (hinb0_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.GramSpec.lean ====
/-
  The Gaussian (radial basis function) Gram matrix of two point sets, as ONE function of the two arrays.

  X and Y each hold 8192 points of 256 coordinates, one point per row. Entry (r, s) of the Gram matrix is
      exp(-1 · max(|X_r|² + |Y_s|² − 2 · ⟨X_r, Y_s⟩, 0)),
  where |X_r|² = Σ_k X[r,k]² is the squared length of a row and ⟨X_r, Y_s⟩ = Σ_k X[r,k] · Y[s,k] the inner
  product of two rows: the squared distance |X_r − Y_s|² written through the norm expansion, clamped at zero,
  negated and exponentiated. All arithmetic is that of the extended reals. The three scalar constants
  (−1, 2 and 0) are kept as the binary32 words that spell them, so that they are compared, never evaluated.
-/
import Idealize.ShloMosaic.PureOps.Ideal
import Idealize.ShloMosaic.Lib.ValueIdx

noncomputable section

open scoped BigOperators

namespace Cert.Gram

open Idealize.ShloMosaic Idealize.ShloMosaic.ValueIdx

/-- A set of 8192 points with 256 coordinates each, one point per row. -/
abbrev Points : Type := (⟨2, ![8192, 256]⟩ : Shape).Idx → EReal

/-- The squared length of point `r`: the sum over its coordinates of their squares. -/
def rowSq (A : Points) (r : Fin 8192) : EReal := ∑ k : Fin 256, A (ix2 r k) * A (ix2 r k)

/-- The inner product of point `r` of `A` with point `s` of `B`. -/
def rowDot (A B : Points) (r s : Fin 8192) : EReal := ∑ k : Fin 256, A (ix2 r k) * B (ix2 s k)

/-- One entry from its three scalars: `a` and `b` the two squared lengths, `d` the inner product. -/
def entry (a b d : EReal) : EReal :=
  Ideal.exp (Ideal.ofBits .f32 0xBF800000#32
    * max (a + b - Ideal.ofBits .f32 0x40000000#32 * d) (Ideal.ofBits .f32 0x00000000#32))

/-- The Gram matrix: entry (r, s) from the squared lengths of X's row r and Y's row s and their inner product. -/
def gram (X Y : Points) : (⟨2, ![8192, 8192]⟩ : Shape).Idx → EReal := fun i =>
  entry (rowSq X (i 0)) (rowSq Y (i 1)) (rowDot X Y (i 0) (i 1))

/-- The Gram matrix read at coordinates (r, s). -/
theorem gram_apply (X Y : Points) (r s : Fin 8192) :
    gram X Y (ix2 r s) = entry (rowSq X r) (rowSq Y s) (rowDot X Y r s) := rfl

end Cert.Gram

end
-- ==== Proof.RefGram.lean ====
/-
  The reference computes the Gram matrix (GramSpec).

  Read one operation at a time: the row sums of X ∘ X and of Y ∘ Y, started from the zero word, are the squared
  lengths (0 + Σ = Σ); the two keep-dimension broadcasts and the transpose only move those sums to the row and to
  the column of the output index; the contraction of X with Y over the coordinate axis is the inner product of
  row r of X with row s of Y; and the remaining operations are pointwise: add, scale by 2, subtract, clamp at 0,
  scale by −1, exponentiate — exactly the entry's formula.
-/
import proofs.«171450_j65481071410012_2_alg».proof.Proof.Gen.ReferenceIdeal.Read
import proofs.«171450_j65481071410012_2_alg».proof.Proof.GramSpec
import Idealize.ShloMosaic.PureOps.Ideal.Laws

noncomputable section

open scoped BigOperators

namespace Cert.Gram.Ref

open Idealize.ShloMosaic Idealize.ShloMosaic.ValueIdx
open Cert.ReferenceIdeal Cert.ReferenceIdeal.Gen Cert.ReferenceIdeal.Read Cert.Gram

/-- The row sum of X ∘ X at row `r` is the squared length of that row. -/
theorem rowsum_x (X : Points) (r : Fin 8192) : val_main_v1 (F := Ideal) X (ix1 r) = rowSq X r := by
  rw [val_main_v1_apply]
  show Ideal.ofBits .f32 0x00000000#32 + ∑ k : Fin 256, X (idx_main_v1 (ix1 r) k) * X (idx_main_v1 (ix1 r) k) = _
  rw [Ideal.ofBits_zero_f32, zero_add]
  refine Finset.sum_congr rfl fun k _ => ?_
  have e : idx_main_v1 (ix1 r) k = ix2 r k :=
    funext fun a => Fin.ext (by match a with | ⟨0, _⟩ => rfl | ⟨1, _⟩ => rfl)
  rw [e]

/-- The row sum of Y ∘ Y at row `s` is the squared length of that row. -/
theorem rowsum_y (Y : Points) (s : Fin 8192) : val_main_v4 (F := Ideal) Y (ix1 s) = rowSq Y s := by
  rw [val_main_v4_apply]
  show Ideal.ofBits .f32 0x00000000#32 + ∑ k : Fin 256, Y (idx_main_v4 (ix1 s) k) * Y (idx_main_v4 (ix1 s) k) = _
  rw [Ideal.ofBits_zero_f32, zero_add]
  refine Finset.sum_congr rfl fun k _ => ?_
  have e : idx_main_v4 (ix1 s) k = ix2 s k :=
    funext fun a => Fin.ext (by match a with | ⟨0, _⟩ => rfl | ⟨1, _⟩ => rfl)
  rw [e]

/-- X's squared lengths broadcast along the columns: at (r, s) the squared length of X's row r. -/
theorem bcast_x (X : Points) (r s : Fin 8192) : val_main_v8 (F := Ideal) X (ix2 r s) = rowSq X r := by
  rw [val_main_v8_apply, val_main_v2_apply]
  have e : idx_main_v2 (idx_main_v8 (ix2 r s)) = ix1 r :=
    funext fun a => Fin.ext (by match a with | ⟨0, _⟩ => rfl)
  rw [e]
  exact rowsum_x X r

/-- Y's squared lengths transposed into a row and broadcast along the rows: at (r, s) the squared length of Y's row s. -/
theorem bcast_y (Y : Points) (r s : Fin 8192) : val_main_v9 (F := Ideal) Y (ix2 r s) = rowSq Y s := by
  rw [val_main_v9_apply, val_main_v6_apply, val_main_v5_apply]
  have e : idx_main_v5 (idx_main_v6 (idx_main_v9 (ix2 r s))) = ix1 s :=
    funext fun a => Fin.ext (by match a with | ⟨0, _⟩ => rfl)
  rw [e]
  exact rowsum_y Y s

/-- The contraction over the coordinate axis at (r, s) is the inner product of X's row r with Y's row s. -/
theorem contract (X Y : Points) (r s : Fin 8192) : val_main_v7 (F := Ideal) X Y (ix2 r s) = rowDot X Y r s := by
  rw [val_main_v7_apply]
  refine Finset.sum_congr rfl fun k _ => ?_
  have el : lidx_main_v7 (ix2 r s) k = ix2 r k :=
    funext fun a => Fin.ext (by match a with | ⟨0, _⟩ => rfl | ⟨1, _⟩ => rfl)
  have er : ridx_main_v7 (ix2 r s) k = ix2 s k :=
    funext fun a => Fin.ext (by match a with | ⟨0, _⟩ => rfl | ⟨1, _⟩ => rfl)
  rw [el, er]

/-- The reference's result is the Gram matrix. -/
theorem result_eq (X Y : Points) : val_main_v18 (F := Ideal) X Y = gram X Y := by
  funext i
  obtain ⟨r, s, rfl⟩ : ∃ (r : Fin 8192) (s : Fin 8192), i = ix2 r s := ⟨i 0, i 1, eq_ix2 i⟩
  rw [val_main_v18_apply, val_main_v17_apply, val_main_v15_apply, val_main_v13_apply, val_main_v12_apply,
    val_main_v10_apply, bcast_x, bcast_y, contract, gram_apply]
  rfl

end Cert.Gram.Ref

end
-- ==== Proof.TileEntry.lean ====
/-
  One entry of the block the kernel body stores, at block coordinates (p, q).

  The body holds a block of 1024 rows of X, a block of 2048 rows of Y, and a row of 2048 precomputed squared
  lengths of Y's rows. It sums the squares along each row of its X block, lays the sums out as a column and
  broadcasts the column across the block; broadcasts the row of Y's squared lengths down the block; multiplies
  the X block with the transposed Y block into a zero accumulator; and then works pointwise. Read at (p, q):
    - the broadcast column is the sum over k of xb[p,k]²;
    - the broadcast row is the precomputed value at q;
    - the matrix product into zero is the sum over k of xb[p,k] · yb[q,k];
  and the pointwise tail is the entry's formula (GramSpec) of these three scalars. The casts between the two
  float formats are the identity on the extended reals.
-/
import proofs.«171450_j65481071410012_2_alg».proof.Proof.Gen.KernelIdeal.Skeleton
import proofs.«171450_j65481071410012_2_alg».proof.Proof.GramSpec
import Idealize.ShloMosaic.Lib.Pipeline.Value
import Idealize.ShloMosaic.Lib.ValueIdx
import Idealize.ShloMosaic.PureOps.Ideal.Laws

noncomputable section

open scoped BigOperators

namespace Cert.Gram.Tile

open Idealize.ShloMosaic Idealize.ShloMosaic.ValueIdx
open Cert.KernelIdeal Cert.KernelIdeal.Gen Cert.Gram

/-- A vector of 1024 values laid out as a 1024 × 1 column reads, at (p, 0), the value at p. -/
theorem column_apply {α : Type} (v : S1024.Idx → α) (h : S1024.ShapeCasts S1024x1) (p : Fin 1024) (z : Fin 1) :
    shapeCast S1024x1 v h (ix2 p z) = v (ix1 p) :=
  shapeCast_apply v h (ix2 p z) (ix1 p) (by
    rw [Shape.rowMajor_val_one, Shape.rowMajor_val_two]
    show p.val = p.val * 1 + z.val
    omega)

/-- A 1024 × 1 column broadcast across 2048 columns reads, at (p, q), the column's value at p. -/
theorem across_apply {α : Type} (v : S1024x1.Idx → α) (h : S1024x1.Broadcasts S1024x2048) (p : Fin 1024) (q : Fin 2048) :
    broadcastTo S1024x2048 v h (ix2 p q) = v (ix2 p 0) :=
  broadcastTo_apply v h (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A 1 × 2048 row broadcast down 1024 rows reads, at (p, q), the row's value at q. -/
theorem down_apply {α : Type} (v : S1x2048.Idx → α) (h : S1x2048.Broadcasts S1024x2048) (p : Fin 1024) (q : Fin 2048) :
    broadcastTo S1024x2048 v h (ix2 p q) = v (ix2 0 q) :=
  broadcastTo_apply v h (ix2 p q) (ix2 0 q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- The sum along the rows of a 1024 × 256 block, on the extended reals, reads at row p the sum over the 256 columns. -/
theorem rowsum_apply (y : FVec Ideal S1024x256 .f32) (h : S1024x256.Reduces [1] S1024) (hφ : FKind.Formats .f32)
    (hacc : (0x00000000#32 : BitVec 32) = 0x00000000#32) (p : Fin 1024) :
    multiReduction .add [1] S1024 y 0x00000000#32 h hφ hacc (ix1 p) = ∑ k : Fin 256, y (ix2 p k) :=
  (Ideal.multiReduction_add_single y 0x00000000#32 h hφ hacc (ix1 p)).trans
    (Finset.sum_congr rfl fun k _ => congrArg y
      (funext fun a => Fin.ext (by match a with | ⟨0, _⟩ => rfl | ⟨1, _⟩ => rfl)))

/-- The block product's dimension numbers: contract the column axis of both operands. -/
abbrev D := dot_S1024x256_S2048x256_S1024x2048_1_1_0_0_n_n

theorem lhs_row (i : S1024x2048.Idx) (c : D.contr.Idx) : (D.lhsIdx i c 0).val = (i 0).val := by
  unfold DotDims.lhsIdx
  rw [dif_neg (show ¬(0 : Fin S1024x256.rank) ∈ D.lhsBatch by decide),
    dif_pos (show (0 : Fin S1024x256.rank) ∈ D.lhsNonContracting by decide)]
  rfl
theorem lhs_col (i : S1024x2048.Idx) (c : D.contr.Idx) : (D.lhsIdx i c 1).val = (c ⟨0, by decide⟩).val :=
  D.lhsIdx_val_of_single rfl i c
theorem rhs_row (i : S1024x2048.Idx) (c : D.contr.Idx) : (D.rhsIdx i c 0).val = (i 1).val := by
  unfold DotDims.rhsIdx
  rw [dif_neg (show ¬(0 : Fin S2048x256.rank) ∈ D.rhsBatch by decide),
    dif_pos (show (0 : Fin S2048x256.rank) ∈ D.rhsNonContracting by decide)]
  rfl
theorem rhs_col (i : S1024x2048.Idx) (c : D.contr.Idx) : (D.rhsIdx i c 1).val = (c ⟨0, by decide⟩).val :=
  D.rhsIdx_val_of_single rfl i c

/-- The product of a 1024 × 256 block with the transpose of a 2048 × 256 block, accumulated into zero, reads at
    (p, q) the sum over k of a[p,k] · b[q,k]. -/
theorem product_apply (a : FVec Ideal S1024x256 .bf16) (b : FVec Ideal S2048x256 .bf16) (p : Fin 1024) (q : Fin 2048) :
    matmul D none a b (constant S1024x2048 .f32 0x00000000#32) (ix2 p q) = ∑ k : Fin 256, a (ix2 p k) * b (ix2 q k) := by
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun x => Fin.ext (by
    match x with
    | ⟨0, _⟩ => exact lhs_row _ _
    | ⟨1, _⟩ => exact (lhs_col _ _).trans hk)
  have er : D.rhsIdx (ix2 p q) ((contrEquiv1 D 256 rfl rfl).symm k) = ix2 q k := funext fun x => Fin.ext (by
    match x with
    | ⟨0, _⟩ => exact rhs_row _ _
    | ⟨1, _⟩ => exact (rhs_col _ _).trans hk)
  rw [el, er]

/-- The entry's formula respects equality of its three scalars. -/
theorem entry_congr {a a' b b' d d' : EReal} (ha : a = a') (hb : b = b') (hd : d = d') :
    entry a b d = entry a' b' d' := by rw [ha, hb, hd]

/-- THE STORED BLOCK AT (p, q): the entry's formula of the squared length of row p of the X block, the
    precomputed squared length at q, and the inner product of row p of the X block with row q of the Y block. -/
theorem stored_apply (xb : FVec Ideal S1024x256 .bf16) (yb : FVec Ideal S2048x256 .bf16) (ysq : FVec Ideal S1x2048 .f32)
    (p : Fin 1024) (q : Fin 2048) :
    k0_pay1 (F := Ideal) xb yb ysq (ix2 p q)
      = entry (∑ k : Fin 256, xb (ix2 p k) * xb (ix2 p k)) (ysq (ix2 0 q)) (∑ k : Fin 256, xb (ix2 p k) * yb (ix2 q k)) := by
  unfold k0_pay1
  simp only [shapeCast_self]
  refine entry_congr ?_ ?_ ?_
  · exact (across_apply _ _ p q).trans ((column_apply _ _ p 0).trans (rowsum_apply _ _ _ _ p))
  · exact down_apply _ _ p q
  · exact product_apply xb yb p q

end Cert.Gram.Tile

end
-- ==== Proof.TileReads.lean ====
/-
  What the kernel's three input blocks hold at a grid point, in terms of the two argument arrays.

  Before the grid runs, the host prepares three arrays: X and Y with every entry narrowed to the shorter float
  format (the identity on the extended reals), and the row of Y's squared lengths — the row sums of Y ∘ Y from the
  zero word, kept as a column and transposed into a 1 × 8192 row. At a grid point, block number b of a window is
  the slab of its array starting at b × (block size) on each axis. So, with I, J the output block's row and column
  block numbers at the point:
    - entry (p, k) of the X block is X[I·1024 + p, k];
    - entry (q, k) of the Y block is Y[J·2048 + q, k];
    - entry (0, q) of the squared-length block is |Y_{J·2048 + q}|².
  The block numbers are stated here as hypotheses on the coordinates; they are decided over the grid where the
  lemmas are used.
-/
import proofs.«171450_j65481071410012_2_alg».proof.Proof.Gen.KernelIdeal.Frame
import proofs.«171450_j65481071410012_2_alg».proof.Proof.GramSpec
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.Gram.Reads

open Idealize.ShloMosaic Idealize.ShloMosaic.TcCoe Idealize.ShloMosaic.ValueIdx Idealize.ShloMosaic.StableHlo
open Idealize.SL.Sem
open Cert.KernelIdeal Cert.KernelIdeal.Gen Cert.Gram

variable (m : (ℓ : Loc nD τ sig) → Buf (Elt Ideal) ℓ)

/-- The first argument array on core `c`: the points X. -/
abbrev argX (c : Dev nD) : Points := m ((c : Thread nD τ).loc main_arg0)
/-- The second argument array on core `c`: the points Y. -/
abbrev argY (c : Dev nD) : Points := m ((c : Thread nD τ).loc main_arg1)

/-! ## The arrays the host prepares -/

/-- The narrowed copy of X is X. -/
theorem narrowed_x (c : Dev nD) : (V m c main_v4 : S8192x256.Idx → EReal) = argX m c := by
  dsimp only [V, hostOps0]
  after_results
  rfl

/-- The narrowed copy of Y is Y. -/
theorem narrowed_y (c : Dev nD) : (V m c main_v5 : S8192x256.Idx → EReal) = argY m c := by
  dsimp only [V, hostOps0]
  after_results
  rfl

/-- The row of squared lengths, as the chain of host operations that writes it. -/
theorem sqrow_chain (c : Dev nD) : (V m c main_v3 : S1x8192.Idx → EReal)
      = transpose S1x8192 [1, 0] (broadcastInDim S8192x1 ![0] bcast_S8192_S8192x1_0
          (Host.reduceAdd (F := Ideal) (mulf (argY m c) (argY m c)) (constant (F := Ideal) S_ .f32 0x00000000#32)
            reducesTo_S8192x256_S8192_d1 h_S_)) transposes_S8192x1_S1x8192_1_0 := by
  dsimp only [V, hostOps0]
  after_results

/-- That chain read at (0, s): the squared length of row s. The transpose and the keep-dimension broadcast only
    move the index; the row sum from the zero word is the plain sum. -/
theorem sqrow_apply (Y : Points) (hb : S8192.BroadcastsInDim S8192x1 (![0] : Fin 1 → Fin S8192x1.rank))
    (hr : S8192x256.ReducesTo [1] S8192) (h0 : 0 < S_.numel) (ht : S8192x1.Transposes [1, 0] S1x8192)
    (z : Fin 1) (s : Fin 8192) :
    transpose S1x8192 [1, 0] (broadcastInDim S8192x1 ![0] hb
        (Host.reduceAdd (F := Ideal) (mulf Y Y) (constant (F := Ideal) S_ .f32 0x00000000#32) hr h0)) ht (ix2 z s)
      = rowSq Y s := by
  refine (transpose_apply [1, 0] _ ht (ix2 z s) (ix2 s z) (fun b => match b with
    | ⟨0, _⟩ => rfl
    | ⟨1, _⟩ => rfl)).trans ?_
  refine (broadcastInDim_apply _ hb _ (ix2 s z) (ix1 s) (fun a => match a with
    | ⟨0, _⟩ => by show s.val = if (8192 : Nat) = 1 then 0 else s.val; rw [if_neg (by decide)])).trans ?_
  generalize hy : (mulf Y Y : FVec Ideal S8192x256 .f32) = y0
  simp only [Host.reduceAdd, Ideal.hostReduceAdd_def]
  rw [Ideal.hostReduceAdd_single hr (by decide)]
  show Ideal.ofBits .f32 0x00000000#32 + _ = _
  rw [Ideal.ofBits_zero_f32, zero_add]
  refine Finset.sum_congr rfl fun k _ => ?_
  rw [← hy]
  exact congrArg (fun i => Y i * Y i) (funext fun a => Fin.ext (by match a with | ⟨0, _⟩ => rfl | ⟨1, _⟩ => rfl))

/-! ## The blocks at a grid point -/

/-- Entry (p, k) of the X block at point `t` is X at the array index with those coordinates inside the block. -/
theorem xblock_apply (c : Dev nD) (t : Fin cfg0.N) (p : Fin 1024) (k : Fin 256) (i : S8192x256.Idx)
    (h0 : (i 0).val = win0_0.index t (0 : Fin 2) * 1024 + p.val)
    (h1 : (i 1).val = win0_0.index t (1 : Fin 2) * 256 + k.val) :
    (iblk m c 0 t : FVec Ideal S1024x256 .bf16) (ix2 p k) = argX m c i := by
  unfold iblk
  rw [View.read_apply]
  show V m c main_v4 _ = _
  rw [narrowed_x]
  refine congrArg (argX m c) (funext fun a => Fin.ext ?_)
  match a with
  | ⟨0, _⟩ => show win0_0.index t (0 : Fin 2) * 1024 + 1 * p.val = (i 0).val; omega
  | ⟨1, _⟩ => show win0_0.index t (1 : Fin 2) * 256 + 1 * k.val = (i 1).val; omega

/-- Entry (q, k) of the Y block at point `t` is Y at the array index with those coordinates inside the block. -/
theorem yblock_apply (c : Dev nD) (t : Fin cfg0.N) (q : Fin 2048) (k : Fin 256) (i : S8192x256.Idx)
    (h0 : (i 0).val = win0_1.index t (0 : Fin 2) * 2048 + q.val)
    (h1 : (i 1).val = win0_1.index t (1 : Fin 2) * 256 + k.val) :
    (iblk m c 1 t : FVec Ideal S2048x256 .bf16) (ix2 q k) = argY m c i := by
  unfold iblk
  rw [View.read_apply]
  show V m c main_v5 _ = _
  rw [narrowed_y]
  refine congrArg (argY m c) (funext fun a => Fin.ext ?_)
  match a with
  | ⟨0, _⟩ => show win0_1.index t (0 : Fin 2) * 2048 + 1 * q.val = (i 0).val; omega
  | ⟨1, _⟩ => show win0_1.index t (1 : Fin 2) * 256 + 1 * k.val = (i 1).val; omega

/-- Entry (0, q) of the squared-length block at point `t` is the squared length of the row of Y that q names
    inside the block, when the block sits on the array's only row. -/
theorem sqblock_apply (c : Dev nD) (t : Fin cfg0.N) (q : Fin 2048) (s : Fin 8192)
    (h0 : win0_2.index t (0 : Fin 2) = 0)
    (h1 : s.val = win0_2.index t (1 : Fin 2) * 2048 + q.val) :
    (iblk m c 2 t : FVec Ideal S1x2048 .f32) (ix2 0 q) = rowSq (argY m c) s := by
  unfold iblk
  rw [View.read_apply]
  show V m c main_v3 _ = _
  rw [sqrow_chain]
  refine Eq.trans (congrArg _ (funext fun a => Fin.ext ?_)) (sqrow_apply (argY m c) _ _ _ _ 0 s)
  match a with
  | ⟨0, _⟩ => show win0_2.index t (0 : Fin 2) * 1 + 1 * 0 = 0; omega
  | ⟨1, _⟩ => show win0_2.index t (1 : Fin 2) * 2048 + 1 * q.val = s.val; omega

end Cert.Gram.Reads

end
-- ==== Proof.KernelGram.lean ====
/-
  The kernel's result array ends holding the Gram matrix (GramSpec).

  The grid has 8 × 4 points; the point with output block numbers (I, J) computes the 1024 × 2048 block of the
  result whose top-left corner is (I·1024, J·2048), from the X block number I, the Y block number J and the
  squared-length block number J (the relations between the four windows' block numbers are decided over the 32
  points). By the block reads (TileReads) and the body's entry (TileEntry), entry (p, q) of what the point writes
  back is the Gram matrix at (I·1024 + p, J·2048 + q): the squared length of the X block's row p is that of X's row
  I·1024 + p, the precomputed value at q is the squared length of Y's row J·2048 + q, and the block product's
  entry is the inner product of those two rows. Every output index (r, s) lies in the block numbered
  (r / 1024, s / 2048), which some point writes, so the blocks cover the array and it ends as the Gram matrix.
-/
import proofs.«171450_j65481071410012_2_alg».proof.Proof.Gen.KernelIdeal.Value
import proofs.«171450_j65481071410012_2_alg».proof.Proof.TileEntry
import proofs.«171450_j65481071410012_2_alg».proof.Proof.TileReads

noncomputable section

open scoped BigOperators

namespace Cert.Gram.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.Gram Cert.Gram.Tile Cert.Gram.Reads

variable (m : (ℓ : Loc nD τ sig) → Buf (Elt Ideal) ℓ) (ρ : Dev nD → PrngReg)

theorem zeros : (![0, 0] : Fin 2 → Nat) = fun _ => 0 := funext fun a => by fin_cases a <;> rfl

/-- The four windows' block numbers at every grid point: the X block follows the output's row block, the Y block
    and the squared-length block follow the output's column block, the other coordinates are 0, and the output's
    block numbers stay below 8 and 4. -/
theorem block_numbers : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every output block is some point's. -/
theorem every_block : ∀ (a : Fin 8) (b : Fin 4), ∃ t : Fin cfg0.N, win0_3.index t = ![a.val, b.val] :=
  (by decide +kernel : ∀ (a : Fin 8) (b : Fin 4), ∃ t : Fin grid0.N, win0_3.index t = ![a.val, b.val])

/-- THE ENTRY A POINT COMPUTES: at block coordinates (p, q) of point `t`, the body's stored value is the Gram
    matrix at the array index `i` those coordinates name inside the point's output block. -/
theorem point_entry (c : Dev nD) (t : Fin cfg0.N) (p : Fin 1024) (q : Fin 2048) (i : S8192x8192.Idx)
    (hi0 : (i 0).val = win0_3.index t (0 : Fin 2) * 1024 + p.val)
    (hi1 : (i 1).val = win0_3.index t (1 : Fin 2) * 2048 + q.val) :
    k0_pay1 (F := Ideal) (iblk m c 0 t) (iblk m c 1 t) (iblk m c 2 t) (ix2 p q) = gram (argX m c) (argY m c) i := by
  obtain ⟨e00, e01, e10, e11, e20, e21, -, -⟩ := block_numbers t
  refine (stored_apply (iblk m c 0 t) (iblk m c 1 t) (iblk m c 2 t) p q).trans ?_
  obtain ⟨r, s, rfl⟩ : ∃ (r : Fin 8192) (s : Fin 8192), i = ix2 r s := ⟨i 0, i 1, eq_ix2 i⟩
  have hr : r.val = win0_3.index t (0 : Fin 2) * 1024 + p.val := hi0
  have hs : s.val = win0_3.index t (1 : Fin 2) * 2048 + q.val := hi1
  rw [gram_apply]
  have hx : ∀ k : Fin 256, (iblk m c 0 t : FVec Ideal S1024x256 .bf16) (ix2 p k) = argX m c (ix2 r k) := fun k =>
    xblock_apply m c t p k (ix2 r k) (by show r.val = _; omega) (by show k.val = _; omega)
  have hy : ∀ k : Fin 256, (iblk m c 1 t : FVec Ideal S2048x256 .bf16) (ix2 q k) = argY m c (ix2 s k) := fun k =>
    yblock_apply m c t q k (ix2 s k) (by show s.val = _; omega) (by show k.val = _; omega)
  refine entry_congr (Finset.sum_congr rfl fun k _ => ?_) ?_ (Finset.sum_congr rfl fun k _ => ?_)
  · exact congrArg₂ (· * ·) (hx k) (hx k)
  · exact sqblock_apply m c t q s e20 (by omega)
  · exact congrArg₂ (· * ·) (hx k) (hy k)

/-- WHAT POINT `t` WRITES BACK is its block of the Gram matrix. -/
theorem flushed_eq (c : Dev nD) (t : Fin cfg0.N) :
    (dats m 0 c).flushed 3 t = ((cfg0.win 3).blk t).view.read (Elt Ideal) (gram (argX m c) (argY m c)) := by
  rw [flushed3]
  unfold out0_3
  rw [View.canon_unit_zero zeros]
  simp only [View.ld_unit_zero (S := S1024x256) zeros, View.ld_unit_zero (S := S2048x256) zeros,
    View.ld_unit_zero (S := S1x2048) zeros]
  funext j
  obtain ⟨p, q, rfl⟩ : ∃ (p : Fin 1024) (q : Fin 2048), j = ix2 p q := ⟨j 0, j 1, eq_ix2 j⟩
  show k0_pay1 (F := Ideal) (iblk m c 0 t) (iblk m c 1 t) (iblk m c 2 t) (ix2 p q)
    = gram (argX m c) (argY m c) (((cfg0.win 3).blk t).view.emb (ix2 p q))
  refine point_entry m c t p q _ ?_ ?_
  · show win0_3.index t (0 : Fin 2) * 1024 + 1 * p.val = _; omega
  · show win0_3.index t (1 : Fin 2) * 2048 + 1 * q.val = _; omega

/-- An index of the result array is in point `t`'s block iff each coordinate is in the block's range on its axis. -/
theorem mem_blk (t : Fin cfg0.N) (i : S8192x8192.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v6).slice (win0_3.rect t)).set ↔ _
  rw [View.set_slice_whole, Rect.mem_set_unit]
  exact Iff.rfl

/-- Every index (r, s) of the result array is in the block numbered (r / 1024, s / 2048), which some point writes back. -/
theorem covered (i : S8192x8192.Idx) :
    ∃ t : Fin cfg0.N, (cfg0.win 3).flush t = true ∧ i ∈ ((cfg0.win 3).blk t).view.set := by
  have hi0 : (i 0).val < 8192 := idx2_lt0 i
  have hi1 : (i 1).val < 8192 := idx2_lt1 i
  obtain ⟨t, ht⟩ := every_block ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 2048 ≤ (i 1).val ∧ (i 1).val < win0_3.index t (1 : Fin 2) * 2048 + 2048
    omega

/-- THE RESULT ARRAY after the run is the Gram matrix of the two argument arrays. -/
theorem final (c : Dev nD) : (dats m 0 c).arrAt 3 cfg0.N = gram (argX m c) (argY m c) :=
  (dats m 0 c).arrAt_eq_of_cover 3 (gram (argX m c) (argY m c)) (fun t _ => flushed_eq m c t) covered

/-- The run, read: every weakly fair execution terminates with the result array at the Gram matrix of the
    arguments and the arguments unchanged. -/
theorem run : θ_run defs (onTc (τ := τ) (main (F := Ideal))) ⟨m, fun _ => 0, ρ⟩ fun r => ∀ c : Dev nD,
      r.2.mem ((c : Thread nD τ).loc main_v6) = gram (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Gram.Kernel

end
-- ==== Proof.lean ====
/-
  The certificate of a Gaussian (radial basis function) Gram matrix kernel against its reference.

  Both programs take two sets of 8192 points with 256 coordinates, X and Y, and return the 8192 × 8192 matrix
      K[r, s] = exp(−1 · max(|X_r|² + |Y_s|² − 2 · ⟨X_r, Y_s⟩, 0)),
  the squared distance written through the norm expansion. The reference computes it on whole arrays. The kernel
  tiles the output into 8 × 4 blocks of 1024 × 2048: per block it narrows X and Y to a shorter float format
  (the identity on the extended reals), recomputes the squared lengths of its 1024 rows of X from the block itself,
  takes the squared lengths of Y's rows from a row the host computed once, multiplies the X block with the
  transposed Y block, and applies the same pointwise tail. On the extended reals the two are one function of
  (X, Y), entry by entry, with no algebra beyond 0 + Σ = Σ: the same sums, the same three constants (the same
  binary words on both sides), the same order of the pointwise operations. The proof never opens the
  precondition (finite inputs).

  The parts: GramSpec states K; RefGram reads the reference's run as K; TileEntry reads the kernel body's stored
  block at a block coordinate; TileReads reads the body's input blocks back to X and Y; KernelGram puts the blocks
  together into the whole result array. The kernel's idealization rewrote nothing, so that claim is `True`.
-/
import proofs.«171450_j65481071410012_2_alg».proof.Defs
import proofs.«171450_j65481071410012_2_alg».proof.Proof.Gen.Kernel
import proofs.«171450_j65481071410012_2_alg».proof.Proof.Gen.Kernel.Frame
import proofs.«171450_j65481071410012_2_alg».proof.Proof.Gen.KernelIdeal
import proofs.«171450_j65481071410012_2_alg».proof.Proof.Gen.KernelIdeal.Frame
import proofs.«171450_j65481071410012_2_alg».proof.Proof.Gen.KernelIdeal.Value
import proofs.«171450_j65481071410012_2_alg».proof.Proof.Gen.ReferenceIdeal
import proofs.«171450_j65481071410012_2_alg».proof.Proof.Gen.ReferenceIdeal.Run
import proofs.«171450_j65481071410012_2_alg».proof.Proof.Gen.ReferenceIdeal.Read
import proofs.«171450_j65481071410012_2_alg».proof.Proof.Gen.Pre_finite_inputs
import proofs.«171450_j65481071410012_2_alg».proof.Proof.GramSpec
import proofs.«171450_j65481071410012_2_alg».proof.Proof.RefGram
import proofs.«171450_j65481071410012_2_alg».proof.Proof.KernelGram
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On the extended reals, from memories that agree on X and Y, the kernel's result array and the reference's
    both end at the Gram matrix of (X, Y). -/
theorem algebraic : Cert.algebraic_KernelIdeal_ReferenceIdeal := by
  intro m ρ m' ρ' _ hagree
  refine ⟨fun c => Cert.Gram.gram (Cert.Gram.Reads.argX m c) (Cert.Gram.Reads.argY m c), Cert.Gram.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v18_eq _ _).trans (Cert.Gram.Ref.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
